-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel

variable [Facts]

def fn {F : FTy → Type} [FloatOps F] (main_arg0 : FVec F S16384x32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  main_v3
-- ==== Kernel.lean ====
abbrev S16384x32 : Shape := ⟨2, ![16384, 32]⟩
abbrev S16384x4096 : Shape := ⟨2, ![16384, 4096]⟩
abbrev S512x32 : Shape := ⟨2, ![512, 32]⟩
abbrev S512x4096 : Shape := ⟨2, ![512, 4096]⟩
abbrev S512x8 : Shape := ⟨2, ![512, 8]⟩
abbrev S512x1 : Shape := ⟨2, ![512, 1]⟩
abbrev S512x64 : Shape := ⟨2, ![512, 64]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S16384x32, .f32⟩
  | .hbm, ⟨1, _⟩ => ⟨S16384x4096, .f32⟩
  | .local _ .vmem, ⟨0, _⟩ => ⟨S512x32, .f32⟩
  | .local _ .vmem, ⟨1, _⟩ => ⟨S512x32, .f32⟩
  | .local _ .vmem, ⟨2, _⟩ => ⟨S512x4096, .f32⟩
  | .local _ .vmem, ⟨3, _⟩ => ⟨S512x4096, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x32_S512x32_0_0 : ∀ a, (![0, 0] : Fin 2 → Nat) a + S512x32.size a ≤ S512x32.size a
  h_S512x32 : 0 < S512x32.numel
  slices_S512x32_o0_0_S512x8 : S512x32.Slices ![0, 0] S512x8
  slices_S512x32_o0_8_S512x8 : S512x32.Slices ![0, 8] S512x8
  slices_S512x32_o0_16_S512x8 : S512x32.Slices ![0, 16] S512x8
  slices_S512x32_o0_24_S512x8 : S512x32.Slices ![0, 24] S512x8
  slices_S512x8_o0_0_S512x1 : S512x8.Slices ![0, 0] S512x1
  broadcasts_S512x1_S512x8 : S512x1.Broadcasts S512x8
  slices_S512x8_o0_1_S512x1 : S512x8.Slices ![0, 1] S512x1
  slices_S512x8_o0_2_S512x1 : S512x8.Slices ![0, 2] S512x1
  slices_S512x8_o0_3_S512x1 : S512x8.Slices ![0, 3] S512x1
  slices_S512x8_o0_4_S512x1 : S512x8.Slices ![0, 4] S512x1
  slices_S512x8_o0_5_S512x1 : S512x8.Slices ![0, 5] S512x1
  slices_S512x8_o0_6_S512x1 : S512x8.Slices ![0, 6] S512x1
  slices_S512x8_o0_7_S512x1 : S512x8.Slices ![0, 7] S512x1
  concatenates_S512x8_S512x8_S512x8_S512x8_S512x8_S512x8_S512x8_S512x8_S512x64_d1 : Shape.Concatenates [S512x8, S512x8, S512x8, S512x8, S512x8, S512x8, S512x8, S512x8] S512x64 1
  broadcasts_S512x1_S512x64 : S512x1.Broadcasts S512x64
  concatenates_S512x64_S512x64_S512x64_S512x64_S512x64_S512x64_S512x64_S512x64_S512x512_d1 : Shape.Concatenates [S512x64, S512x64, S512x64, S512x64, S512x64, S512x64, S512x64, S512x64] S512x512 1
  broadcasts_S512x1_S512x512 : S512x1.Broadcasts S512x512
  inb_S512x4096_S512x512_0_0 : ∀ a, (![0, 0] : Fin 2 → Nat) a + S512x512.size a ≤ S512x4096.size a
  h_S512x512 : 0 < S512x512.numel
  inb_S512x4096_S512x512_0_512 : ∀ a, (![0, 512] : Fin 2 → Nat) a + S512x512.size a ≤ S512x4096.size a
  inb_S512x4096_S512x512_0_1024 : ∀ a, (![0, 1024] : Fin 2 → Nat) a + S512x512.size a ≤ S512x4096.size a
  inb_S512x4096_S512x512_0_1536 : ∀ a, (![0, 1536] : Fin 2 → Nat) a + S512x512.size a ≤ S512x4096.size a
  inb_S512x4096_S512x512_0_2048 : ∀ a, (![0, 2048] : Fin 2 → Nat) a + S512x512.size a ≤ S512x4096.size a
  inb_S512x4096_S512x512_0_2560 : ∀ a, (![0, 2560] : Fin 2 → Nat) a + S512x512.size a ≤ S512x4096.size a
  inb_S512x4096_S512x512_0_3072 : ∀ a, (![0, 3072] : Fin 2 → Nat) a + S512x512.size a ≤ S512x4096.size a
  inb_S512x4096_S512x512_0_3584 : ∀ a, (![0, 3584] : Fin 2 → Nat) a + S512x512.size a ≤ S512x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S16384x32.size a
  hwx0_0 : ∀ i : grid0.Coords, EltTy.bits .f32 = 32 ∨ (Rect.block (s := S16384x32) S512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)

variable [Facts₀]

abbrev win0_0 : Pipeline.Window sig grid0 :=
  Pipeline.Window.ofSpec (Memref.whole main_arg0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x32 : Shape := ⟨2, ![16384, 32]⟩
abbrev S16384x4x8 : Shape := ⟨3, ![16384, 4, 8]⟩
abbrev S16384x1x8 : Shape := ⟨3, ![16384, 1, 8]⟩
abbrev S16384x8 : Shape := ⟨2, ![16384, 8]⟩
abbrev S16384x8x1 : Shape := ⟨3, ![16384, 8, 1]⟩
abbrev S16384x8x8 : Shape := ⟨3, ![16384, 8, 8]⟩
abbrev S16384x64 : Shape := ⟨2, ![16384, 64]⟩
abbrev S16384x64x1 : Shape := ⟨3, ![16384, 64, 1]⟩
abbrev S16384x64x8 : Shape := ⟨3, ![16384, 64, 8]⟩
abbrev S16384x512 : Shape := ⟨2, ![16384, 512]⟩
abbrev S16384x512x1 : Shape := ⟨3, ![16384, 512, 1]⟩
abbrev S16384x512x8 : Shape := ⟨3, ![16384, 512, 8]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x4x8, .f32⟩
  | .hbm, ⟨2, _⟩ => ⟨S16384x1x8, .f32⟩
  | .hbm, ⟨3, _⟩ => ⟨S16384x8, .f32⟩
  | .hbm, ⟨4, _⟩ => ⟨S16384x8x1, .f32⟩
  | .hbm, ⟨5, _⟩ => ⟨S16384x1x8, .f32⟩
  | .hbm, ⟨6, _⟩ => ⟨S16384x8, .f32⟩
  | .hbm, ⟨7, _⟩ => ⟨S16384x1x8, .f32⟩
  | .hbm, ⟨8, _⟩ => ⟨S16384x8x8, .f32⟩
  | .hbm, ⟨9, _⟩ => ⟨S16384x8x8, .f32⟩
  | .hbm, ⟨10, _⟩ => ⟨S16384x8x8, .f32⟩
  | .hbm, ⟨11, _⟩ => ⟨S16384x64, .f32⟩
  | .hbm, ⟨12, _⟩ => ⟨S16384x64x1, .f32⟩
  | .hbm, ⟨13, _⟩ => ⟨S16384x1x8, .f32⟩
  | .hbm, ⟨14, _⟩ => ⟨S16384x8, .f32⟩
  | .hbm, ⟨15, _⟩ => ⟨S16384x1x8, .f32⟩
  | .hbm, ⟨16, _⟩ => ⟨S16384x64x8, .f32⟩
  | .hbm, ⟨17, _⟩ => ⟨S16384x64x8, .f32⟩
  | .hbm, ⟨18, _⟩ => ⟨S16384x64x8, .f32⟩
  | .hbm, ⟨19, _⟩ => ⟨S16384x512, .f32⟩
  | .hbm, ⟨20, _⟩ => ⟨S16384x512x1, .f32⟩
  | .hbm, ⟨21, _⟩ => ⟨S16384x1x8, .f32⟩
  | .hbm, ⟨22, _⟩ => ⟨S16384x8, .f32⟩
  | .hbm, ⟨23, _⟩ => ⟨S16384x1x8, .f32⟩
  | .hbm, ⟨24, _⟩ => ⟨S16384x512x8, .f32⟩
  | .hbm, ⟨25, _⟩ => ⟨S16384x512x8, .f32⟩
  | .hbm, ⟨26, _⟩ => ⟨S16384x512x8, .f32⟩
  | .hbm, ⟨27, _⟩ => ⟨S16384x4096, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩

abbrev nD : Nat := 1
abbrev τ : Topo := Topo.v7x

variable {F : FTy → Type} [FloatOps F]

class Facts₀ : Prop where
  shapeCasts_S16384x32_S16384x4x8 : S16384x32.ShapeCasts S16384x4x8
  slices_S16384x4x8_S16384x1x8_0_0_0 : S16384x4x8.Slices ![0, 0, 0] S16384x1x8
  shapeCasts_S16384x1x8_S16384x8 : S16384x1x8.ShapeCasts S16384x8
  bcast_S16384x8_S16384x8x1_0_1 : S16384x8.BroadcastsInDim S16384x8x1 (![0, 1] : Fin 2 → Fin S16384x8x1.rank)
  slices_S16384x4x8_S16384x1x8_0_1_0 : S16384x4x8.Slices ![0, 1, 0] S16384x1x8
  bcast_S16384x8_S16384x1x8_0_2 : S16384x8.BroadcastsInDim S16384x1x8 (![0, 2] : Fin 2 → Fin S16384x1x8.rank)
  bcast_S16384x8x1_S16384x8x8_0_1_2 : S16384x8x1.BroadcastsInDim S16384x8x8 (![0, 1, 2] : Fin 3 → Fin S16384x8x8.rank)
  bcast_S16384x1x8_S16384x8x8_0_1_2 : S16384x1x8.BroadcastsInDim S16384x8x8 (![0, 1, 2] : Fin 3 → Fin S16384x8x8.rank)
  shapeCasts_S16384x8x8_S16384x64 : S16384x8x8.ShapeCasts S16384x64
  bcast_S16384x64_S16384x64x1_0_1 : S16384x64.BroadcastsInDim S16384x64x1 (![0, 1] : Fin 2 → Fin S16384x64x1.rank)
  slices_S16384x4x8_S16384x1x8_0_2_0 : S16384x4x8.Slices ![0, 2, 0] S16384x1x8
  bcast_S16384x64x1_S16384x64x8_0_1_2 : S16384x64x1.BroadcastsInDim S16384x64x8 (![0, 1, 2] : Fin 3 → Fin S16384x64x8.rank)
  bcast_S16384x1x8_S16384x64x8_0_1_2 : S16384x1x8.BroadcastsInDim S16384x64x8 (![0, 1, 2] : Fin 3 → Fin S16384x64x8.rank)
  shapeCasts_S16384x64x8_S16384x512 : S16384x64x8.ShapeCasts S16384x512
  bcast_S16384x512_S16384x512x1_0_1 : S16384x512.BroadcastsInDim S16384x512x1 (![0, 1] : Fin 2 → Fin S16384x512x1.rank)
  slices_S16384x4x8_S16384x1x8_0_3_0 : S16384x4x8.Slices ![0, 3, 0] S16384x1x8
  bcast_S16384x512x1_S16384x512x8_0_1_2 : S16384x512x1.BroadcastsInDim S16384x512x8 (![0, 1, 2] : Fin 3 → Fin S16384x512x8.rank)
  bcast_S16384x1x8_S16384x512x8_0_1_2 : S16384x1x8.BroadcastsInDim S16384x512x8 (![0, 1, 2] : Fin 3 → Fin S16384x512x8.rank)
  shapeCasts_S16384x512x8_S16384x4096 : S16384x512x8.ShapeCasts S16384x4096

variable [Facts₀]

class Facts : Prop extends Facts₀ where

variable [Facts]
-- ==== Proof.TNormSpec.lean ====
/-
  The product T-norm over four groups of eight membership values.

  A row of the input holds 32 numbers, read as four groups g0, g1, g2, g3 of eight: the `i`-th value of group `k`
  sits in column `8·k + i`. The result has one column for every choice (i0, i1, i2, i3) of one value from each
  group, the last group varying fastest: column `512·i0 + 64·i1 + 8·i2 + i3` holds the product of the four chosen
  values. Read backwards, column `j` chooses i0 = j / 512, i1 = j / 64 mod 8, i2 = j / 8 mod 8, i3 = j mod 8.

  A four-way product can be bracketed from the right, g0·(g1·(g2·g3)), or from the left, ((g0·g1)·g2)·g3. On the
  extended reals multiplication is associative outright (the convention 0·∞ = 0 keeps the monoid laws), so the two
  bracketings are one function of the row, with no assumption that the values are finite.
-/
import Idealize.ShloMosaic.PureOps.Ideal
import Idealize.ShloMosaic.Lib.ValueIdx

noncomputable section

namespace Cert.TNorm

open Idealize.ShloMosaic

/-- Row `r`, column `c` of an array of `R` rows and 32 columns. -/
abbrev cell {R : Nat} (r : Nat) (hr : r < R) (c : Nat) (hc : c < 32) : (⟨2, ![R, 32]⟩ : Shape).Idx :=
  fun a => match a with
    | ⟨0, _⟩ => ⟨r, hr⟩
    | ⟨1, _⟩ => ⟨c, hc⟩

/-- The row of a result index is a row of the input. -/
theorem row_lt {R : Nat} (i : (⟨2, ![R, 4096]⟩ : Shape).Idx) : (i 0).val < R := (i 0).isLt

/-- Column `j` of the result chooses value `j / 512` of group 0: column `j / 512` of the input. -/
theorem c0_lt {R : Nat} (i : (⟨2, ![R, 4096]⟩ : Shape).Idx) : (i 1).val / 512 < 32 := by
  have h : (i 1).val < 4096 := (i 1).isLt
  omega
/-- … value `j / 64 mod 8` of group 1: column `8 + j / 64 mod 8`. -/
theorem c1_lt {R : Nat} (i : (⟨2, ![R, 4096]⟩ : Shape).Idx) : 8 + (i 1).val / 64 % 8 < 32 := by omega
/-- … value `j / 8 mod 8` of group 2: column `16 + j / 8 mod 8`. -/
theorem c2_lt {R : Nat} (i : (⟨2, ![R, 4096]⟩ : Shape).Idx) : 16 + (i 1).val / 8 % 8 < 32 := by omega
/-- … value `j mod 8` of group 3: column `24 + j mod 8`. -/
theorem c3_lt {R : Nat} (i : (⟨2, ![R, 4096]⟩ : Shape).Idx) : 24 + (i 1).val % 8 < 32 := by omega

variable {F : FTy → Type} [FloatOps F]

/-- The four-way product bracketed from the right: g0 · (g1 · (g2 · g3)). -/
def fromRight {R : Nat} (x : (⟨2, ![R, 32]⟩ : Shape).Idx → Elt F .f32) : (⟨2, ![R, 4096]⟩ : Shape).Idx → Elt F .f32 := fun i =>
  FloatOps.mulf (x (cell (i 0).val (row_lt i) ((i 1).val / 512) (c0_lt i)))
    (FloatOps.mulf (x (cell (i 0).val (row_lt i) (8 + (i 1).val / 64 % 8) (c1_lt i)))
      (FloatOps.mulf (x (cell (i 0).val (row_lt i) (16 + (i 1).val / 8 % 8) (c2_lt i)))
        (x (cell (i 0).val (row_lt i) (24 + (i 1).val % 8) (c3_lt i)))))

/-- The four-way product bracketed from the left: ((g0 · g1) · g2) · g3. -/
def fromLeft {R : Nat} (x : (⟨2, ![R, 32]⟩ : Shape).Idx → Elt F .f32) : (⟨2, ![R, 4096]⟩ : Shape).Idx → Elt F .f32 := fun i =>
  FloatOps.mulf
    (FloatOps.mulf
      (FloatOps.mulf (x (cell (i 0).val (row_lt i) ((i 1).val / 512) (c0_lt i)))
        (x (cell (i 0).val (row_lt i) (8 + (i 1).val / 64 % 8) (c1_lt i))))
      (x (cell (i 0).val (row_lt i) (16 + (i 1).val / 8 % 8) (c2_lt i))))
    (x (cell (i 0).val (row_lt i) (24 + (i 1).val % 8) (c3_lt i)))

/-- The product at a row is a function of that row alone, so it commutes with cutting the array into blocks of rows:
    if `xb` is the block of `X` whose first row is row `base` of `X`, entry `j` of the product of `xb` is entry
    (`base` + row of `j`, column of `j`) of the product of `X`. -/
theorem fromRight_rows {R R' : Nat} (X : (⟨2, ![R, 32]⟩ : Shape).Idx → Elt F .f32) (xb : (⟨2, ![R', 32]⟩ : Shape).Idx → Elt F .f32)
    (base : Nat)
    (hx : ∀ (y : (⟨2, ![R', 32]⟩ : Shape).Idx) (Y : (⟨2, ![R, 32]⟩ : Shape).Idx),
      (Y 0).val = base + (y 0).val → (Y 1).val = (y 1).val → xb y = X Y)
    (j : (⟨2, ![R', 4096]⟩ : Shape).Idx) (J : (⟨2, ![R, 4096]⟩ : Shape).Idx)
    (hJ0 : (J 0).val = base + (j 0).val) (hJ1 : (J 1).val = (j 1).val) :
    fromRight (F := F) xb j = fromRight (F := F) X J := by
  show FloatOps.mulf (xb _) (FloatOps.mulf (xb _) (FloatOps.mulf (xb _) (xb _)))
    = FloatOps.mulf (X _) (FloatOps.mulf (X _) (FloatOps.mulf (X _) (X _)))
  refine congrArg₂ FloatOps.mulf (hx _ _ hJ0 ?_) (congrArg₂ FloatOps.mulf (hx _ _ hJ0 ?_)
    (congrArg₂ FloatOps.mulf (hx _ _ hJ0 ?_) (hx _ _ hJ0 ?_)))
  · show (J 1).val / 512 = (j 1).val / 512; rw [hJ1]
  · show 8 + (J 1).val / 64 % 8 = 8 + (j 1).val / 64 % 8; rw [hJ1]
  · show 16 + (J 1).val / 8 % 8 = 16 + (j 1).val / 8 % 8; rw [hJ1]
  · show 24 + (J 1).val % 8 = 24 + (j 1).val % 8; rw [hJ1]

/-- On the extended reals the two bracketings agree: multiplication there is associative. -/
theorem fromLeft_eq_fromRight {R : Nat} (x : (⟨2, ![R, 32]⟩ : Shape).Idx → Elt Ideal .f32) :
    fromLeft (F := Ideal) x = fromRight (F := Ideal) x := by
  funext i
  show ((x _ * x _) * x _) * x _ = x _ * (x _ * (x _ * x _))
  rw [mul_assoc, mul_assoc]

end Cert.TNorm

end
-- ==== Proof.KernelBlock.lean ====
/-
  What one grid point of the kernel leaves in its output block.

  A grid point loads a block of 512 rows of the input and splits each row into the four groups g0 … g3 (columns
  0–7, 8–15, 16–23, 24–31). Its one building step takes a group and an already-built factor of width w and lays
  eight scaled copies of the factor side by side: copy `n` is (value `n` of the group, stretched along the row) ·
  factor, so column `c` of the result is group[c / w] · factor[c mod w]. Applied to (g2, g3) this gives a factor of
  width 64, g2[c / 8] · g3[c mod 8]; applied to g1 and that, a factor of width 512; the last step is not laid out
  as a value but stored slab by slab: slab `n` of the output block, columns 512·n … 512·n + 511, is g0[n] · factor.
  So column `j` of the block holds g0[j/512] · (g1[j/64 mod 8] · (g2[j/8 mod 8] · g3[j mod 8])): the four-way
  product bracketed from the right. The outermost level (the eight stored slabs and the width-512 side-by-side
  layout) is already read by the generated value module as `E1`; below, the two inner levels are read.
-/
import proofs.«142119_j71038759076547_2_alg».proof.Proof.Gen.KernelIdeal.Value
import proofs.«142119_j71038759076547_2_alg».proof.Proof.TNormSpec

noncomputable section

namespace Cert.TNorm.Kernel

open Cert.KernelIdeal Cert.KernelIdeal.Gen Cert.KernelIdeal.Value Idealize.ShloMosaic Idealize.ShloMosaic.TcCoe

variable {F : FTy → Type} [FloatOps F]

/-- One scaled copy: value `k` of the group that starts at column `o`, stretched along a row of width `W`, times
    the factor `B`. -/
abbrev scaled {W : Nat} (P0 : Vec F S512x32 .f32) (o k : Nat) (hs1 : S512x32.Slices ![0, o] S512x8)
    (hs2 : S512x8.Slices ![0, k] S512x1) (hb : S512x1.Broadcasts (⟨2, ![512, W]⟩ : Shape))
    (B : FVec F (⟨2, ![512, W]⟩ : Shape) .f32) : FVec F (⟨2, ![512, W]⟩ : Shape) .f32 :=
  mulf (broadcastTo (⟨2, ![512, W]⟩ : Shape) (extractStridedSlice S512x1 ![0, k] (extractStridedSlice S512x8 ![0, o] P0 hs1) hs2) hb) B

/-- A scaled copy at entry `z`: the input at (row of `z`, column `o + k`) times the factor at `z`. The stretched
    column is read through the broadcast (the row kept, the unit axis at 0) and the two slices (offsets added). -/
theorem scaled_apply {W : Nat} (P0 : Vec F S512x32 .f32) (o k : Nat) (hk : k < 8) (hs1 : S512x32.Slices ![0, o] S512x8)
    (hs2 : S512x8.Slices ![0, k] S512x1) (hb : S512x1.Broadcasts (⟨2, ![512, W]⟩ : Shape))
    (B : FVec F (⟨2, ![512, W]⟩ : Shape) .f32) (z : (⟨2, ![512, W]⟩ : Shape).Idx) (c : S512x32.Idx)
    (hc0 : (c 0).val = (z 0).val) (hc1 : (c 1).val = o + k) :
    scaled P0 o k hs1 hs2 hb B z = FloatOps.mulf (P0 c) (B z) := by
  have hz0 : (z 0).val < 512 := (z 0).isLt
  show FloatOps.mulf (broadcastTo _ (extractStridedSlice S512x1 ![0, k] (extractStridedSlice S512x8 ![0, o] P0 hs1) hs2) hb z) (B z) = _
  refine congrArg (fun v => FloatOps.mulf v (B z)) ?_
  refine (broadcastTo_apply _ hb z (fun a => match a with | ⟨0, _⟩ => ⟨(z 0).val, hz0⟩ | ⟨1, _⟩ => ⟨0, Nat.one_pos⟩ : S512x1.Idx)
    (fun a => match a with
      | ⟨0, _⟩ => by show (z 0).val = (if (512 : Nat) = 1 then 0 else (z 0).val); rw [if_neg (by decide)]
      | ⟨1, _⟩ => by show 0 = (if (1 : Nat) = 1 then 0 else (z 1).val); rw [if_pos rfl])).trans ?_
  refine (extractStridedSlice_apply ![0, k] _ hs2 _ (fun a => match a with | ⟨0, _⟩ => ⟨(z 0).val, hz0⟩ | ⟨1, _⟩ => ⟨k, hk⟩ : S512x8.Idx)
    (fun a => match a with
      | ⟨0, _⟩ => by show (z 0).val = 0 + (z 0).val; omega
      | ⟨1, _⟩ => by show k = k + 0; omega)).trans ?_
  exact extractStridedSlice_apply ![0, o] P0 hs1 _ c
    (fun a => match a with
      | ⟨0, _⟩ => by show (c 0).val = 0 + (z 0).val; omega
      | ⟨1, _⟩ => by show (c 1).val = o + k; omega)

/-- The eight copies of the innermost level: copy `n` is g2[n], stretched, times g3. -/
abbrev innerFam (P0 : Vec F S512x32 .f32) : Fin 8 → FVec F S512x8 .f32 := fun n => match n with
  | ⟨0, _⟩ => scaled (W := 8) P0 16 0 slices_S512x32_o0_16_S512x8 slices_S512x8_o0_0_S512x1 broadcasts_S512x1_S512x8 (extractStridedSlice S512x8 ![0, 24] P0 slices_S512x32_o0_24_S512x8)
  | ⟨1, _⟩ => scaled (W := 8) P0 16 1 slices_S512x32_o0_16_S512x8 slices_S512x8_o0_1_S512x1 broadcasts_S512x1_S512x8 (extractStridedSlice S512x8 ![0, 24] P0 slices_S512x32_o0_24_S512x8)
  | ⟨2, _⟩ => scaled (W := 8) P0 16 2 slices_S512x32_o0_16_S512x8 slices_S512x8_o0_2_S512x1 broadcasts_S512x1_S512x8 (extractStridedSlice S512x8 ![0, 24] P0 slices_S512x32_o0_24_S512x8)
  | ⟨3, _⟩ => scaled (W := 8) P0 16 3 slices_S512x32_o0_16_S512x8 slices_S512x8_o0_3_S512x1 broadcasts_S512x1_S512x8 (extractStridedSlice S512x8 ![0, 24] P0 slices_S512x32_o0_24_S512x8)
  | ⟨4, _⟩ => scaled (W := 8) P0 16 4 slices_S512x32_o0_16_S512x8 slices_S512x8_o0_4_S512x1 broadcasts_S512x1_S512x8 (extractStridedSlice S512x8 ![0, 24] P0 slices_S512x32_o0_24_S512x8)
  | ⟨5, _⟩ => scaled (W := 8) P0 16 5 slices_S512x32_o0_16_S512x8 slices_S512x8_o0_5_S512x1 broadcasts_S512x1_S512x8 (extractStridedSlice S512x8 ![0, 24] P0 slices_S512x32_o0_24_S512x8)
  | ⟨6, _⟩ => scaled (W := 8) P0 16 6 slices_S512x32_o0_16_S512x8 slices_S512x8_o0_6_S512x1 broadcasts_S512x1_S512x8 (extractStridedSlice S512x8 ![0, 24] P0 slices_S512x32_o0_24_S512x8)
  | ⟨7, _⟩ => scaled (W := 8) P0 16 7 slices_S512x32_o0_16_S512x8 slices_S512x8_o0_7_S512x1 broadcasts_S512x1_S512x8 (extractStridedSlice S512x8 ![0, 24] P0 slices_S512x32_o0_24_S512x8)

/-- Copy `n` of the innermost level at entry `w`: g2[n] · g3[w's column]. -/
theorem innerFam_apply (P0 : Vec F S512x32 .f32) (n : Fin 8) (w : S512x8.Idx) (c2 c3 : S512x32.Idx)
    (h20 : (c2 0).val = (w 0).val) (h21 : (c2 1).val = 16 + n.val)
    (h30 : (c3 0).val = (w 0).val) (h31 : (c3 1).val = 24 + (w 1).val) :
    innerFam P0 n w = FloatOps.mulf (P0 c2) (P0 c3) := by
  have g3 : extractStridedSlice S512x8 ![0, 24] P0 slices_S512x32_o0_24_S512x8 w = P0 c3 :=
    extractStridedSlice_apply ![0, 24] P0 slices_S512x32_o0_24_S512x8 w c3
      (fun a => match a with
        | ⟨0, _⟩ => by show (c3 0).val = 0 + (w 0).val; omega
        | ⟨1, _⟩ => by show (c3 1).val = 24 + (w 1).val; omega)
  match n, h21 with
  | ⟨0, _⟩, h21 => exact (scaled_apply (W := 8) P0 16 0 (by decide) _ _ _ _ w c2 h20 h21).trans (congrArg (FloatOps.mulf (P0 c2)) g3)
  | ⟨1, _⟩, h21 => exact (scaled_apply (W := 8) P0 16 1 (by decide) _ _ _ _ w c2 h20 h21).trans (congrArg (FloatOps.mulf (P0 c2)) g3)
  | ⟨2, _⟩, h21 => exact (scaled_apply (W := 8) P0 16 2 (by decide) _ _ _ _ w c2 h20 h21).trans (congrArg (FloatOps.mulf (P0 c2)) g3)
  | ⟨3, _⟩, h21 => exact (scaled_apply (W := 8) P0 16 3 (by decide) _ _ _ _ w c2 h20 h21).trans (congrArg (FloatOps.mulf (P0 c2)) g3)
  | ⟨4, _⟩, h21 => exact (scaled_apply (W := 8) P0 16 4 (by decide) _ _ _ _ w c2 h20 h21).trans (congrArg (FloatOps.mulf (P0 c2)) g3)
  | ⟨5, _⟩, h21 => exact (scaled_apply (W := 8) P0 16 5 (by decide) _ _ _ _ w c2 h20 h21).trans (congrArg (FloatOps.mulf (P0 c2)) g3)
  | ⟨6, _⟩, h21 => exact (scaled_apply (W := 8) P0 16 6 (by decide) _ _ _ _ w c2 h20 h21).trans (congrArg (FloatOps.mulf (P0 c2)) g3)
  | ⟨7, _⟩, h21 => exact (scaled_apply (W := 8) P0 16 7 (by decide) _ _ _ _ w c2 h20 h21).trans (congrArg (FloatOps.mulf (P0 c2)) g3)

/-- The factor of width 64: the eight innermost copies side by side. -/
abbrev inner (P0 : Vec F S512x32 .f32) : FVec F S512x64 .f32 :=
  concatenate S512x64 1 (List.ofFn fun n : Fin 8 => (⟨S512x8, innerFam P0 n⟩ : (s : Shape) × (s.Idx → F .f32)))
    concatenates_S512x8_S512x8_S512x8_S512x8_S512x8_S512x8_S512x8_S512x8_S512x64_d1

/-- The factor of width 64 at entry `z`: g2[c / 8] · g3[c mod 8] for `c` the column of `z` — the side-by-side layout
    read at an index picks copy `c / 8` at its column `c mod 8`. -/
theorem inner_apply (P0 : Vec F S512x32 .f32) (z : S512x64.Idx) (c2 c3 : S512x32.Idx)
    (h20 : (c2 0).val = (z 0).val) (h21 : (c2 1).val = 16 + (z 1).val / 8)
    (h30 : (c3 0).val = (z 0).val) (h31 : (c3 1).val = 24 + (z 1).val % 8) :
    inner P0 z = FloatOps.mulf (P0 c2) (P0 c3) := by
  have hz0 : (z 0).val < 512 := (z 0).isLt
  have hz1 : (z 1).val < 64 := (z 1).isLt
  refine (concatenate_ofFn_apply (t := S512x64) (s₁ := S512x8) (1 : Fin 2) (innerFam P0) _ rfl 8 rfl z
    ⟨(z 1).val / 8, by omega⟩ rfl
    (fun a => match a with | ⟨0, _⟩ => ⟨(z 0).val, hz0⟩ | ⟨1, _⟩ => ⟨(z 1).val % 8, by show (z 1).val % 8 < 8; omega⟩ : S512x8.Idx) rfl
    (fun b hb => by match b with | ⟨0, _⟩ => rfl | ⟨1, _⟩ => exact absurd rfl hb)).trans ?_
  exact innerFam_apply P0 _ _ c2 c3 h20 h21 h30 h31

/-- The middle level: copy `n` (the generated module's `Cat1_1 P0 n`) is g1[n], stretched, times the factor of
    width 64; at entry `z` it is g1[n] · (g2[c / 8] · g3[c mod 8]). -/
theorem mid_apply (P0 : Vec F S512x32 .f32) (n : Fin 8) (z : S512x64.Idx) (c1 c2 c3 : S512x32.Idx)
    (h10 : (c1 0).val = (z 0).val) (h11 : (c1 1).val = 8 + n.val)
    (h20 : (c2 0).val = (z 0).val) (h21 : (c2 1).val = 16 + (z 1).val / 8)
    (h30 : (c3 0).val = (z 0).val) (h31 : (c3 1).val = 24 + (z 1).val % 8) :
    Cat1_1 P0 n z = FloatOps.mulf (P0 c1) (FloatOps.mulf (P0 c2) (P0 c3)) := by
  have hin := inner_apply P0 z c2 c3 h20 h21 h30 h31
  match n, h11 with
  | ⟨0, _⟩, h11 =>
    show scaled (W := 64) P0 8 0 slices_S512x32_o0_8_S512x8 slices_S512x8_o0_0_S512x1 broadcasts_S512x1_S512x64 (inner P0) z = _
    exact (scaled_apply (W := 64) P0 8 0 (by decide) _ _ _ _ z c1 h10 h11).trans (congrArg (FloatOps.mulf (P0 c1)) hin)
  | ⟨1, _⟩, h11 =>
    show scaled (W := 64) P0 8 1 slices_S512x32_o0_8_S512x8 slices_S512x8_o0_1_S512x1 broadcasts_S512x1_S512x64 (inner P0) z = _
    exact (scaled_apply (W := 64) P0 8 1 (by decide) _ _ _ _ z c1 h10 h11).trans (congrArg (FloatOps.mulf (P0 c1)) hin)
  | ⟨2, _⟩, h11 =>
    show scaled (W := 64) P0 8 2 slices_S512x32_o0_8_S512x8 slices_S512x8_o0_2_S512x1 broadcasts_S512x1_S512x64 (inner P0) z = _
    exact (scaled_apply (W := 64) P0 8 2 (by decide) _ _ _ _ z c1 h10 h11).trans (congrArg (FloatOps.mulf (P0 c1)) hin)
  | ⟨3, _⟩, h11 =>
    show scaled (W := 64) P0 8 3 slices_S512x32_o0_8_S512x8 slices_S512x8_o0_3_S512x1 broadcasts_S512x1_S512x64 (inner P0) z = _
    exact (scaled_apply (W := 64) P0 8 3 (by decide) _ _ _ _ z c1 h10 h11).trans (congrArg (FloatOps.mulf (P0 c1)) hin)
  | ⟨4, _⟩, h11 =>
    show scaled (W := 64) P0 8 4 slices_S512x32_o0_8_S512x8 slices_S512x8_o0_4_S512x1 broadcasts_S512x1_S512x64 (inner P0) z = _
    exact (scaled_apply (W := 64) P0 8 4 (by decide) _ _ _ _ z c1 h10 h11).trans (congrArg (FloatOps.mulf (P0 c1)) hin)
  | ⟨5, _⟩, h11 =>
    show scaled (W := 64) P0 8 5 slices_S512x32_o0_8_S512x8 slices_S512x8_o0_5_S512x1 broadcasts_S512x1_S512x64 (inner P0) z = _
    exact (scaled_apply (W := 64) P0 8 5 (by decide) _ _ _ _ z c1 h10 h11).trans (congrArg (FloatOps.mulf (P0 c1)) hin)
  | ⟨6, _⟩, h11 =>
    show scaled (W := 64) P0 8 6 slices_S512x32_o0_8_S512x8 slices_S512x8_o0_6_S512x1 broadcasts_S512x1_S512x64 (inner P0) z = _
    exact (scaled_apply (W := 64) P0 8 6 (by decide) _ _ _ _ z c1 h10 h11).trans (congrArg (FloatOps.mulf (P0 c1)) hin)
  | ⟨7, _⟩, h11 =>
    show scaled (W := 64) P0 8 7 slices_S512x32_o0_8_S512x8 slices_S512x8_o0_7_S512x1 broadcasts_S512x1_S512x64 (inner P0) z = _
    exact (scaled_apply (W := 64) P0 8 7 (by decide) _ _ _ _ z c1 h10 h11).trans (congrArg (FloatOps.mulf (P0 c1)) hin)

/-- THE BLOCK: what the eight stored slabs leave, as one function of the loaded block, is the four-way product
    bracketed from the right. The generated `E1` reads the outermost level — slab `j / 512` scales by g0[j / 512],
    and inside a slab column `j mod 512` lies in middle copy `j / 64 mod 8` at its column `j mod 64` —, and
    `(j mod 64) / 8 = j / 8 mod 8`, `(j mod 64) mod 8 = j mod 8`. -/
theorem block_eq (P0 : Vec F S512x32 .f32) : E1 P0 = Cert.TNorm.fromRight (F := F) (R := 512) P0 := by
  funext y
  have hy0 : (y 0).val < 512 := (y 0).isLt
  have hy1 : (y 1).val < 4096 := (y 1).isLt
  show FloatOps.mulf (P0 (ix1_0 y)) (Cat1_1 P0 (csel1_1 y) (ix1_1 y))
    = FloatOps.mulf (P0 _) (FloatOps.mulf (P0 _) (FloatOps.mulf (P0 _) (P0 _)))
  refine congrArg₂ FloatOps.mulf
    (congrArg P0 (funext fun a => Fin.ext (match a with | ⟨0, _⟩ => rfl | ⟨1, _⟩ => rfl)))
    (mid_apply P0 (csel1_1 y) (ix1_1 y) _ _ _ rfl rfl
      rfl (by show 16 + (y 1).val / 8 % 8 = 16 + (y 1).val % 64 / 8; omega)
      rfl (by show 24 + (y 1).val % 8 = 24 + (y 1).val % 64 % 8; omega))

/-- What a grid point leaves in its output block, of the block it loaded: the right-bracketed product. The frame's
    `out0_1` is the stores' canon at the loaded block (a load of the whole staging buffer reads it as it is). -/
theorem out_eq (x0 : Vec F S512x32 .f32) : out0_1 x0 = Cert.TNorm.fromRight (F := F) (R := 512) x0 := by
  have hz : (![0, 0] : Fin 2 → Nat) = fun _ => 0 := funext fun a => by fin_cases a <;> rfl
  have hld : View.ld x0 r0_0 = x0 := View.ld_unit_zero (S := S512x32) hz _ x0
  funext y
  unfold out0_1
  rw [hld]
  exact (canon1_eq x0 y).trans (congrFun (block_eq x0) y)

end Cert.TNorm.Kernel

end
-- ==== Proof.KernelArray.lean ====
/-
  From the blocks to the whole result array.

  The grid has 32 points; point `t` loads rows 512·t … 512·t + 511 of the input and writes back the same rows of
  the result, all 4096 columns. The product at a row depends on that row alone, so what point `t` writes back is
  block `t` of ONE whole-array function: the right-bracketed product of the whole input. The 32 row blocks tile the
  16384 rows (row `r` lies in block `r / 512`), so after the run the result array is that function of the input.
-/
import proofs.«142119_j71038759076547_2_alg».proof.Proof.KernelBlock

noncomputable section

namespace Cert.TNorm.Kernel

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The two index maps over the 32 grid points: the input's row block is the output's, both windows span all their
    columns (block column 0), and the row block number is at most 31. -/
theorem idx_facts : ∀ t : Fin cfg0.N, win0_0.index t (0 : Fin 2) = win0_1.index t (0 : Fin 2)
    ∧ win0_0.index t (1 : Fin 2) = 0
    ∧ win0_1.index t (1 : Fin 2) = 0
    ∧ win0_1.index t (0 : Fin 2) ≤ 31 :=
  (by decide +kernel : ∀ t : Fin grid0.N, _)

/-- Every one of the 32 row blocks is some grid point's. -/
theorem idx_onto : ∀ q : Fin 32, ∃ t : Fin cfg0.N, win0_1.index t = ![q.val, 0] :=
  (by decide +kernel : ∀ q : Fin 32, ∃ t : Fin grid0.N, win0_1.index t = ![q.val, 0])

/-- What point `t` writes back is block `t` of the right-bracketed product of the whole input array: the block's
    own product (`out_eq`), moved from block rows to array rows (`fromRight_rows`; a block's row `y` is array row
    512 · (block number) + `y`, its columns the array's). -/
theorem flushed_eq (c : Dev nD) (t : Fin cfg0.N) :
    (dats m 0 c).flushed 1 t
      = ((cfg0.win 1).blk t).view.read (Elt F) (Cert.TNorm.fromRight (F := F) (R := 16384) (V m c main_arg0)) := by
  rw [Value.flushed1]
  obtain ⟨e0, e1, e2, e3⟩ := idx_facts t
  funext j
  show out0_1 (iblk m c 0 t) j = Cert.TNorm.fromRight (F := F) (R := 16384) (V m c main_arg0) (((cfg0.win 1).blk t).view.emb j)
  refine (congrFun (out_eq (iblk m c 0 t)) j).trans ?_
  refine Cert.TNorm.fromRight_rows (F := F) (R := 16384) (R' := 512) (V m c main_arg0) (iblk m c 0 t)
    (win0_1.index t (0 : Fin 2) * 512) ?_ j _ ?_ ?_
  · intro y Y hY0 hY1
    show V m c main_arg0 (((cfg0.win 0).blk t).view.emb y) = V m c main_arg0 Y
    refine congrArg _ (funext fun a => Fin.ext ?_)
    match a with
    | ⟨0, _⟩ => show win0_0.index t (0 : Fin 2) * 512 + 1 * (y 0).val = (Y 0).val; omega
    | ⟨1, _⟩ => show win0_0.index t (1 : Fin 2) * 32 + 1 * (y 1).val = (Y 1).val; omega
  · show win0_1.index t (0 : Fin 2) * 512 + 1 * (j 0).val = win0_1.index t (0 : Fin 2) * 512 + (j 0).val; omega
  · show win0_1.index t (1 : Fin 2) * 4096 + 1 * (j 1).val = (j 1).val; omega

/-- An index of the result array is in point `t`'s block iff each coordinate is in the block's range on its axis. -/
theorem mem_blk (t : Fin cfg0.N) (i : S16384x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0).slice (win0_1.rect t)).set ↔ _
  rw [View.set_slice_whole, Rect.mem_set_unit]
  exact Iff.rfl

/-- The row blocks tile the array: row `r` lies in the block of the point whose block number is `r / 512`. -/
theorem cover (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- THE RESULT ARRAY after the run is the right-bracketed product of the input array. -/
theorem final (c : Dev nD) :
    (dats m 0 c).arrAt 1 cfg0.N = Cert.TNorm.fromRight (F := F) (R := 16384) (m ((c : Thread nD τ).loc main_arg0)) :=
  (dats m 0 c).arrAt_eq_of_cover 1 _ (fun t _ => flushed_eq m c t) cover

/-- The kernel's run, read: every weakly fair execution terminates with the result array at the right-bracketed
    product of the input array, the input unchanged. -/
theorem run : θ_run defs (onTc (τ := τ) (main (F := F))) ⟨m, fun _ => 0, ρ⟩ fun r => ∀ c : Dev nD,
      r.2.mem ((c : Thread nD τ).loc main_v0) = Cert.TNorm.fromRight (F := F) (R := 16384) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.TNorm.Kernel

end
-- ==== Proof.ReferenceValue.lean ====
/-
  The reference's result, read at an index.

  The reference reshapes a row of 32 values to four groups of eight, and grows a running product one group at a
  time: the running row of width w is set against the next group as a [w, 8] table of products and flattened
  row-major, so entry `c` of the new row is (entry `c / 8` of the old row) · (value `c mod 8` of the next group).
  Three such steps take width 8 to 64, 512 and 4096; unwinding them, column `j` of the result is
  ((g0[j/512] · g1[j/64 mod 8]) · g2[j/8 mod 8]) · g3[j mod 8]: the four-way product bracketed from the left.
  Each lemma below reads one step through the reference's operations, one at a time, and closes the index
  arithmetic of the reshapes (row-major position kept) and broadcasts (the new axis dropped).
-/
import proofs.«142119_j71038759076547_2_alg».proof.Proof.Gen.ReferenceIdeal.Read
import proofs.«142119_j71038759076547_2_alg».proof.Proof.TNormSpec

noncomputable section

namespace Cert.TNorm.Reference

open Cert.ReferenceIdeal Cert.ReferenceIdeal.Gen Cert.ReferenceIdeal.Read Idealize.ShloMosaic Idealize.ShloMosaic.ValueIdx

variable {F : FTy → Type} [FloatOps F]

/-- Group 0 of the reference: the reshape to [rows, 4, 8], the slice of group 0 and the reshape back to [rows, 8]
    read entry `(r, i)` at column `0 + i` of row `r`. -/
theorem group0 (x0 : (⟨S16384x32, .f32⟩ : BufTy).Contents (Elt F)) (j : S16384x8.Idx) (p : S16384x32.Idx)
    (h0 : (p 0).val = (j 0).val) (h1 : (p 1).val = (j 1).val) : val_main_v2 (F := F) x0 j = x0 p := by
  rw [val_main_v2_apply, val_main_v1_apply, val_main_v0_apply]
  have hj0 : (j 0).val < 16384 := (j 0).isLt
  have hj1 : (j 1).val < 8 := (j 1).isLt
  exact congrArg x0 (funext fun a => Fin.ext (match a with
    | ⟨0, _⟩ => by dsimp only [idx_main_v0, idx_main_v1, idx_main_v2]; show _ = (p 0).val; omega
    | ⟨1, _⟩ => by dsimp only [idx_main_v0, idx_main_v1, idx_main_v2]; show _ = (p 1).val; omega
    ))

/-- Group 1 of the reference: the reshape to [rows, 4, 8], the slice of group 1 and the reshape back to [rows, 8]
    read entry `(r, i)` at column `8 + i` of row `r`. -/
theorem group1 (x0 : (⟨S16384x32, .f32⟩ : BufTy).Contents (Elt F)) (j : S16384x8.Idx) (p : S16384x32.Idx)
    (h0 : (p 0).val = (j 0).val) (h1 : (p 1).val = 8 + (j 1).val) : val_main_v5 (F := F) x0 j = x0 p := by
  rw [val_main_v5_apply, val_main_v4_apply, val_main_v0_apply]
  have hj0 : (j 0).val < 16384 := (j 0).isLt
  have hj1 : (j 1).val < 8 := (j 1).isLt
  exact congrArg x0 (funext fun a => Fin.ext (match a with
    | ⟨0, _⟩ => by dsimp only [idx_main_v0, idx_main_v4, idx_main_v5]; show _ = (p 0).val; omega
    | ⟨1, _⟩ => by dsimp only [idx_main_v0, idx_main_v4, idx_main_v5]; show _ = (p 1).val; omega
    ))

/-- Group 2 of the reference: the reshape to [rows, 4, 8], the slice of group 2 and the reshape back to [rows, 8]
    read entry `(r, i)` at column `16 + i` of row `r`. -/
theorem group2 (x0 : (⟨S16384x32, .f32⟩ : BufTy).Contents (Elt F)) (j : S16384x8.Idx) (p : S16384x32.Idx)
    (h0 : (p 0).val = (j 0).val) (h1 : (p 1).val = 16 + (j 1).val) : val_main_v13 (F := F) x0 j = x0 p := by
  rw [val_main_v13_apply, val_main_v12_apply, val_main_v0_apply]
  have hj0 : (j 0).val < 16384 := (j 0).isLt
  have hj1 : (j 1).val < 8 := (j 1).isLt
  exact congrArg x0 (funext fun a => Fin.ext (match a with
    | ⟨0, _⟩ => by dsimp only [idx_main_v0, idx_main_v12, idx_main_v13]; show _ = (p 0).val; omega
    | ⟨1, _⟩ => by dsimp only [idx_main_v0, idx_main_v12, idx_main_v13]; show _ = (p 1).val; omega
    ))

/-- Group 3 of the reference: the reshape to [rows, 4, 8], the slice of group 3 and the reshape back to [rows, 8]
    read entry `(r, i)` at column `24 + i` of row `r`. -/
theorem group3 (x0 : (⟨S16384x32, .f32⟩ : BufTy).Contents (Elt F)) (j : S16384x8.Idx) (p : S16384x32.Idx)
    (h0 : (p 0).val = (j 0).val) (h1 : (p 1).val = 24 + (j 1).val) : val_main_v21 (F := F) x0 j = x0 p := by
  rw [val_main_v21_apply, val_main_v20_apply, val_main_v0_apply]
  have hj0 : (j 0).val < 16384 := (j 0).isLt
  have hj1 : (j 1).val < 8 := (j 1).isLt
  exact congrArg x0 (funext fun a => Fin.ext (match a with
    | ⟨0, _⟩ => by dsimp only [idx_main_v0, idx_main_v20, idx_main_v21]; show _ = (p 0).val; omega
    | ⟨1, _⟩ => by dsimp only [idx_main_v0, idx_main_v20, idx_main_v21]; show _ = (p 1).val; omega
    ))

/-- First step: entry `c` of the width-64 row is g0[c / 8] · g1[c mod 8]. -/
theorem pairs (x0 : (⟨S16384x32, .f32⟩ : BufTy).Contents (Elt F)) (i : S16384x64.Idx) (p : S16384x8.Idx) (q : S16384x8.Idx)
    (hp0 : (p 0).val = (i 0).val) (hp1 : (p 1).val = (i 1).val / 8) (hq0 : (q 0).val = (i 0).val) (hq1 : (q 1).val = (i 1).val % 8) :
    val_main_v10 (F := F) x0 i = FloatOps.mulf (val_main_v2 (F := F) x0 p) (val_main_v5 (F := F) x0 q) := by
  rw [val_main_v10_apply, val_main_v9_apply, val_main_v7_apply, val_main_v3_apply, val_main_v8_apply, val_main_v6_apply]
  have hi0 : (i 0).val < 16384 := (i 0).isLt
  have hi1 : (i 1).val < 64 := (i 1).isLt
  refine congrArg₂ FloatOps.mulf (congrArg _ (funext fun a => Fin.ext (match a with
    | ⟨0, _⟩ => by dsimp only [idx_main_v10, idx_main_v7, idx_main_v3]; show _ = (p 0).val; omega
    | ⟨1, _⟩ => by dsimp only [idx_main_v10, idx_main_v7, idx_main_v3]; show _ = (p 1).val; omega)))
    (congrArg _ (funext fun a => Fin.ext (match a with
    | ⟨0, _⟩ => by dsimp only [idx_main_v10, idx_main_v8, idx_main_v6]; show _ = (q 0).val; omega
    | ⟨1, _⟩ => by dsimp only [idx_main_v10, idx_main_v8, idx_main_v6]; show _ = (q 1).val; omega)))

/-- Second step: entry `c` of the width-512 row is (entry `c / 8` of the width-64 row) · g2[c mod 8]. -/
theorem triples (x0 : (⟨S16384x32, .f32⟩ : BufTy).Contents (Elt F)) (i : S16384x512.Idx) (p : S16384x64.Idx) (q : S16384x8.Idx)
    (hp0 : (p 0).val = (i 0).val) (hp1 : (p 1).val = (i 1).val / 8) (hq0 : (q 0).val = (i 0).val) (hq1 : (q 1).val = (i 1).val % 8) :
    val_main_v18 (F := F) x0 i = FloatOps.mulf (val_main_v10 (F := F) x0 p) (val_main_v13 (F := F) x0 q) := by
  rw [val_main_v18_apply, val_main_v17_apply, val_main_v15_apply, val_main_v11_apply, val_main_v16_apply, val_main_v14_apply]
  have hi0 : (i 0).val < 16384 := (i 0).isLt
  have hi1 : (i 1).val < 512 := (i 1).isLt
  refine congrArg₂ FloatOps.mulf (congrArg _ (funext fun a => Fin.ext (match a with
    | ⟨0, _⟩ => by dsimp only [idx_main_v18, idx_main_v15, idx_main_v11]; show _ = (p 0).val; omega
    | ⟨1, _⟩ => by dsimp only [idx_main_v18, idx_main_v15, idx_main_v11]; show _ = (p 1).val; omega)))
    (congrArg _ (funext fun a => Fin.ext (match a with
    | ⟨0, _⟩ => by dsimp only [idx_main_v18, idx_main_v16, idx_main_v14]; show _ = (q 0).val; omega
    | ⟨1, _⟩ => by dsimp only [idx_main_v18, idx_main_v16, idx_main_v14]; show _ = (q 1).val; omega)))

/-- Third step: entry `c` of the result is (entry `c / 8` of the width-512 row) · g3[c mod 8]. -/
theorem quads (x0 : (⟨S16384x32, .f32⟩ : BufTy).Contents (Elt F)) (i : S16384x4096.Idx) (p : S16384x512.Idx) (q : S16384x8.Idx)
    (hp0 : (p 0).val = (i 0).val) (hp1 : (p 1).val = (i 1).val / 8) (hq0 : (q 0).val = (i 0).val) (hq1 : (q 1).val = (i 1).val % 8) :
    val_main_v26 (F := F) x0 i = FloatOps.mulf (val_main_v18 (F := F) x0 p) (val_main_v21 (F := F) x0 q) := by
  rw [val_main_v26_apply, val_main_v25_apply, val_main_v23_apply, val_main_v19_apply, val_main_v24_apply, val_main_v22_apply]
  have hi0 : (i 0).val < 16384 := (i 0).isLt
  have hi1 : (i 1).val < 4096 := (i 1).isLt
  refine congrArg₂ FloatOps.mulf (congrArg _ (funext fun a => Fin.ext (match a with
    | ⟨0, _⟩ => by dsimp only [idx_main_v26, idx_main_v23, idx_main_v19]; show _ = (p 0).val; omega
    | ⟨1, _⟩ => by dsimp only [idx_main_v26, idx_main_v23, idx_main_v19]; show _ = (p 1).val; omega)))
    (congrArg _ (funext fun a => Fin.ext (match a with
    | ⟨0, _⟩ => by dsimp only [idx_main_v26, idx_main_v24, idx_main_v22]; show _ = (q 0).val; omega
    | ⟨1, _⟩ => by dsimp only [idx_main_v26, idx_main_v24, idx_main_v22]; show _ = (q 1).val; omega)))

/-- The reference's result is the four-way product bracketed from the left: the three steps unwound, the group
    lemmas at the leaves; `j / 8 / 8 / 8 = j / 512` and `j / 8 / 8 mod 8 = j / 64 mod 8`. -/
theorem result_eq (x0 : (⟨S16384x32, .f32⟩ : BufTy).Contents (Elt F)) :
    val_main_v26 (F := F) x0 = fromLeft (F := F) (R := 16384) x0 := by
  funext i
  have hi0 : (i 0).val < 16384 := (i 0).isLt
  have hi1 : (i 1).val < 4096 := (i 1).isLt
  show _ = FloatOps.mulf (FloatOps.mulf (FloatOps.mulf (x0 _) (x0 _)) (x0 _)) (x0 _)
  refine (quads x0 i (ix2 (⟨(i 0).val, hi0⟩ : Fin 16384) (⟨(i 1).val / 8, by omega⟩ : Fin 512))
    (ix2 (⟨(i 0).val, hi0⟩ : Fin 16384) (⟨(i 1).val % 8, by omega⟩ : Fin 8)) rfl rfl rfl rfl).trans ?_
  refine congrArg₂ FloatOps.mulf ?_ (group3 x0 _ _ rfl rfl)
  refine (triples x0 _ (ix2 (⟨(i 0).val, hi0⟩ : Fin 16384) (⟨(i 1).val / 8 / 8, by omega⟩ : Fin 64))
    (ix2 (⟨(i 0).val, hi0⟩ : Fin 16384) (⟨(i 1).val / 8 % 8, by omega⟩ : Fin 8)) rfl rfl rfl rfl).trans ?_
  refine congrArg₂ FloatOps.mulf ?_ (group2 x0 _ _ rfl rfl)
  refine (pairs x0 _ (ix2 (⟨(i 0).val, hi0⟩ : Fin 16384) (⟨(i 1).val / 8 / 8 / 8, by omega⟩ : Fin 8))
    (ix2 (⟨(i 0).val, hi0⟩ : Fin 16384) (⟨(i 1).val / 8 / 8 % 8, by omega⟩ : Fin 8)) rfl rfl rfl rfl).trans ?_
  exact congrArg₂ FloatOps.mulf
    (group0 x0 _ _ rfl (by show (i 1).val / 512 = (i 1).val / 8 / 8 / 8; omega))
    (group1 x0 _ _ rfl (by show 8 + (i 1).val / 64 % 8 = 8 + (i 1).val / 8 / 8 % 8; omega))

end Cert.TNorm.Reference

end
-- ==== Proof.lean ====
/-
  The product T-norm kernel against its reference: both compute, for every row of 32 membership values read as
  four groups of eight, the 4096 products of one value from each group, the last group varying fastest.

  The kernel builds the product from the inside out — g2·g3 first, then g1 times that, then g0 times that — so its
  column `j` holds g0[j/512] · (g1[j/64 mod 8] · (g2[j/8 mod 8] · g3[j mod 8])). The reference grows a running product
  from the left — g0, then ·g1, then ·g2, then ·g3 — so its column `j` holds ((g0[j/512] · g1[j/64 mod 8]) · g2[j/8 mod 8])
  · g3[j mod 8]. On the extended reals multiplication is associative with no side condition, so the two arrays are
  equal entry by entry; the precondition (finite inputs) is never opened. Nothing was rewritten when the kernel was
  idealized, so that conjunct is trivial. The three frames are the generated frame runs (the reference's frame is
  its generated run with the result forgotten).
-/
import proofs.«142119_j71038759076547_2_alg».proof.Defs
import proofs.«142119_j71038759076547_2_alg».proof.Proof.Gen.Kernel
import proofs.«142119_j71038759076547_2_alg».proof.Proof.Gen.Kernel.Skeleton
import proofs.«142119_j71038759076547_2_alg».proof.Proof.Gen.Kernel.Launch
import proofs.«142119_j71038759076547_2_alg».proof.Proof.Gen.Kernel.Points
import proofs.«142119_j71038759076547_2_alg».proof.Proof.Gen.Kernel.Frame
import proofs.«142119_j71038759076547_2_alg».proof.Proof.Gen.KernelIdeal
import proofs.«142119_j71038759076547_2_alg».proof.Proof.Gen.KernelIdeal.Skeleton
import proofs.«142119_j71038759076547_2_alg».proof.Proof.Gen.KernelIdeal.Launch
import proofs.«142119_j71038759076547_2_alg».proof.Proof.Gen.KernelIdeal.Points
import proofs.«142119_j71038759076547_2_alg».proof.Proof.Gen.KernelIdeal.Frame
import proofs.«142119_j71038759076547_2_alg».proof.Proof.Gen.ReferenceIdeal
import proofs.«142119_j71038759076547_2_alg».proof.Proof.Gen.KernelIdeal.Value
import proofs.«142119_j71038759076547_2_alg».proof.Proof.Gen.ReferenceIdeal.Run
import proofs.«142119_j71038759076547_2_alg».proof.Proof.Gen.ReferenceIdeal.Read
import proofs.«142119_j71038759076547_2_alg».proof.Proof.Gen.Pre_finite_inputs
import proofs.«142119_j71038759076547_2_alg».proof.Proof.TNormSpec
import proofs.«142119_j71038759076547_2_alg».proof.Proof.KernelBlock
import proofs.«142119_j71038759076547_2_alg».proof.Proof.KernelArray
import proofs.«142119_j71038759076547_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its input as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its input as it was: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation: there is nothing to preserve. -/
theorem preserves : Cert.preserves_Kernel_KernelIdeal := trivial

/-- From inputs that agree, the kernel's result array is the right-bracketed product of the input and the
    reference's the left-bracketed one: one function, by associativity. -/
theorem algebraic : Cert.algebraic_KernelIdeal_ReferenceIdeal := by
  intro m ρ m' ρ' _ hagree
  refine ⟨fun c => Cert.TNorm.fromRight (F := Ideal) (R := 16384) (m ((c : Thread Cert.KernelIdeal.nD Cert.KernelIdeal.τ).loc Cert.KernelIdeal.main_arg0)),
    Cert.TNorm.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.TNorm.Reference.result_eq, Cert.TNorm.fromLeft_eq_fromRight, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
